-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  main_v3
-- ==== Kernel.lean ====
abbrev S8388608x3 : Shape := ⟨2, ![8388608, 3]⟩
abbrev S8388608x1 : Shape := ⟨2, ![8388608, 1]⟩
abbrev S8388608 : Shape := ⟨1, ![8388608]⟩
abbrev S65536x128 : Shape := ⟨2, ![65536, 128]⟩
abbrev S8192x128 : Shape := ⟨2, ![8192, 128]⟩
abbrev S_ : Shape := ⟨0, ![]⟩
abbrev S4194304 : Shape := ⟨1, ![4194304]⟩
abbrev S2048x2048 : Shape := ⟨2, ![2048, 2048]⟩

abbrev nBuf : Space → Nat
  | .hbm => 23
  | .vmem => 6
  | .smem => 0
  | _ => 0

abbrev bufTy : (tb : Table) → Fin (tcTables nBuf tb) → BufTy
  | .hbm, ⟨0, _⟩ => ⟨S8388608x3, .f32⟩
  | .hbm, ⟨1, _⟩ => ⟨S8388608x1, .f32⟩
  | .hbm, ⟨2, _⟩ => ⟨S8388608, .f32⟩
  | .hbm, ⟨3, _⟩ => ⟨S65536x128, .f32⟩
  | .hbm, ⟨4, _⟩ => ⟨S8388608x1, .f32⟩
  | .hbm, ⟨5, _⟩ => ⟨S8388608, .f32⟩
  | .hbm, ⟨6, _⟩ => ⟨S65536x128, .f32⟩
  | .hbm, ⟨7, _⟩ => ⟨S8388608x1, .f32⟩
  | .hbm, ⟨8, _⟩ => ⟨S8388608, .f32⟩
  | .hbm, ⟨9, _⟩ => ⟨S65536x128, .i32⟩
  | .hbm, ⟨10, _⟩ => ⟨S8388608, .i32⟩
  | .hbm, ⟨11, _⟩ => ⟨S_, .f32⟩
  | .hbm, ⟨12, _⟩ => ⟨S4194304, .f32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S4194304, .f32⟩
  | .hbm, ⟨22, _⟩ => ⟨S2048x2048, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .i32⟩
  | .local _ .vmem, ⟨5, _⟩ => ⟨S8192x128, .i32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8388608x3_S8388608x1_0_0 : S8388608x3.Slices ![0, 0] S8388608x1
  shapeCasts_S8388608x1_S8388608 : S8388608x1.ShapeCasts S8388608
  shapeCasts_S8388608_S65536x128 : S8388608.ShapeCasts S65536x128
  slices_S8388608x3_S8388608x1_0_1 : S8388608x3.Slices ![0, 1] S8388608x1
  slices_S8388608x3_S8388608x1_0_2 : S8388608x3.Slices ![0, 2] S8388608x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S65536x128_S8388608 : S65536x128.ShapeCasts S8388608
  bcast_S_S4194304 : S_.BroadcastsInDim S4194304 (![] : Fin 0 → Fin S4194304.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S4194304_S2048x2048 : S4194304.ShapeCasts S2048x2048
  scatter_S4194304_S8388608x1_S8388608_n_0_0_1_wf : ScatterDims.WF S4194304 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .i32 = 32 ∨ (Rect.block (s := S65536x128) S8192x128.size (cc0_transform_2 i) (hinb0_2 i)).WholeWords (EltTy.packing .i32)

variable [Facts₀]

def scatter_S4194304_S8388608x1_S8388608_n_0_0_1 : ScatterDims S4194304 S8388608x1 S8388608 where
  updateWindowDims := []
  insertedWindowDims := [0]
  scatterDimsToOperandDims := [0]
  indexVectorDim := 1
  wf := scatter_S4194304_S8388608x1_S8388608_n_0_0_1_wf

abbrev win0_0 : Pipeline.Window sig grid0 :=
  Pipeline.Window.ofSpec (Memref.whole main_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608x2 : Shape := ⟨2, ![8388608, 2]⟩
abbrev S_ : Shape := ⟨0, ![]⟩
abbrev S8388608x1 : Shape := ⟨2, ![8388608, 1]⟩
abbrev S8388608 : Shape := ⟨1, ![8388608]⟩
abbrev S4194304 : Shape := ⟨1, ![4194304]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608x2, .f32⟩
  | .hbm, ⟨2, _⟩ => ⟨S_, .f32⟩
  | .hbm, ⟨3, _⟩ => ⟨S8388608x2, .f32⟩
  | .hbm, ⟨4, _⟩ => ⟨S8388608x2, .f32⟩
  | .hbm, ⟨5, _⟩ => ⟨S8388608x2, .f32⟩
  | .hbm, ⟨6, _⟩ => ⟨S8388608x2, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8388608x2, .i32⟩
  | .hbm, ⟨11, _⟩ => ⟨S8388608x2, .i32⟩
  | .hbm, ⟨12, _⟩ => ⟨S_, .i32⟩
  | .hbm, ⟨13, _⟩ => ⟨S8388608x2, .i32⟩
  | .hbm, ⟨14, _⟩ => ⟨S8388608x2, .i32⟩
  | .hbm, ⟨15, _⟩ => ⟨S8388608x1, .i32⟩
  | .hbm, ⟨16, _⟩ => ⟨S8388608, .i32⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S8388608, .i32⟩
  | .hbm, ⟨22, _⟩ => ⟨S8388608, .i32⟩
  | .hbm, ⟨23, _⟩ => ⟨S8388608x1, .f32⟩
  | .hbm, ⟨24, _⟩ => ⟨S8388608, .f32⟩
  | .hbm, ⟨25, _⟩ => ⟨S_, .f32⟩
  | .hbm, ⟨26, _⟩ => ⟨S4194304, .f32⟩
  | .hbm, ⟨27, _⟩ => ⟨S_, .i32⟩
  | .hbm, ⟨28, _⟩ => ⟨S8388608, .i32⟩
  | .hbm, ⟨29, _⟩ => ⟨S8388608, .i1⟩
  | .hbm, ⟨30, _⟩ => ⟨S_, .i32⟩
  | .hbm, ⟨31, _⟩ => ⟨S8388608, .i32⟩
  | .hbm, ⟨32, _⟩ => ⟨S8388608, .i32⟩
  | .hbm, ⟨33, _⟩ => ⟨S8388608, .i32⟩
  | .hbm, ⟨34, _⟩ => ⟨S8388608x1, .i32⟩
  | .hbm, ⟨35, _⟩ => ⟨S4194304, .f32⟩
  | .hbm, ⟨36, _⟩ => ⟨S2048x2048, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  slices_S8388608x3_S8388608x2_0_0 : S8388608x3.Slices ![0, 0] S8388608x2
  bcast_S_S8388608x2 : S_.BroadcastsInDim S8388608x2 (![] : Fin 0 → Fin S8388608x2.rank)
  slices_S8388608x2_S8388608x1_0_0 : S8388608x2.Slices ![0, 0] S8388608x1
  shapeCasts_S8388608x1_S8388608 : S8388608x1.ShapeCasts S8388608
  bcast_S_S8388608 : S_.BroadcastsInDim S8388608 (![] : Fin 0 → Fin S8388608.rank)
  slices_S8388608x2_S8388608x1_0_1 : S8388608x2.Slices ![0, 1] S8388608x1
  slices_S8388608x3_S8388608x1_0_2 : S8388608x3.Slices ![0, 2] S8388608x1
  bcast_S_S4194304 : S_.BroadcastsInDim S4194304 (![] : Fin 0 → Fin S4194304.rank)
  bcast_S8388608_S8388608x1_0 : S8388608.BroadcastsInDim S8388608x1 (![0] : Fin 1 → Fin S8388608x1.rank)
  shapeCasts_S4194304_S2048x2048 : S4194304.ShapeCasts S2048x2048
  scatter_S4194304_S8388608x1_S8388608_n_0_0_1_wf : ScatterDims.WF S4194304 S8388608x1 S8388608 [] [0] [0] 1

variable [Facts₀]

def scatter_S4194304_S8388608x1_S8388608_n_0_0_1 : ScatterDims S4194304 S8388608x1 S8388608 where
  updateWindowDims := []
  insertedWindowDims := [0]
  scatterDimsToOperandDims := [0]
  indexVectorDim := 1
  wf := scatter_S4194304_S8388608x1_S8388608_n_0_0_1_wf

class Facts : Prop extends Facts₀ where

variable [Facts]
-- ==== Proof.FlatIndex.lean ====
/-
  The bin index of a sample, as a function of its two position coordinates.

  A sample is a row (p, q, v) of the input: a position (p, q) and a value v.  The image has
  2048 × 2048 bins.  Along one axis a coordinate a falls into the bin ⌊2048 · a⌋, converted to a
  32-bit integer and clipped to the range [0, 2047] (`cell`); the bin of the pair, in row-major
  order over the image, is cell p · 2048 + cell q in 32-bit arithmetic (`flat`).  Both programs
  compute exactly this number for every sample — one from the two position columns laid out as
  65536 × 128 tiles, the other from the 8388608 × 2 matrix of positions — and then scatter the
  values v into a zero image at these bins.  `flatArr` is the array of all the samples' bins.
-/
import Idealize.ShloMosaic.PureOps.Ideal
import Idealize.ShloMosaic.Lib.ValueIdx

noncomputable section

namespace Cert.FlatIndex

open Idealize.ShloMosaic Idealize.ShloMosaic.ValueIdx

variable {F : FTy → Type} [FloatOps F]

/-- The bin of a coordinate along one axis: ⌊2048 · a⌋ as a 32-bit integer, clipped to [0, 2047].
    (0x45000000 is the float 2048.) -/
def cell (a : F .f32) : BitVec 32 :=
  IntOp.minsi 2047#32 (IntOp.maxsi 0#32
    (FloatOps.fptosi 32 (FloatOps.floor (FloatOps.mulf a (FloatOps.ofBits .f32 0x45000000#32)))))

/-- The row-major bin of a position (a, b) in the 2048 × 2048 image. -/
def flat (a b : F .f32) : BitVec 32 := IntOp.addi (IntOp.muli (cell a) 2048#32) (cell b)

/-- The bins of all the samples: sample n's position is (x n 0, x n 1). -/
def flatArr (x : (⟨2, ![8388608, 3]⟩ : Shape).Idx → F .f32) : (⟨1, ![8388608]⟩ : Shape).Idx → BitVec 32 :=
  fun n =>
    let a : Fin 8388608 := n 0
    flat (x (ix2 a (0 : Fin 3))) (x (ix2 a (1 : Fin 3)))

/-- Sample a's bin, with the sample number a literal-size coordinate. -/
theorem flatArr_ix1 (x : (⟨2, ![8388608, 3]⟩ : Shape).Idx → F .f32) (a : Fin 8388608) :
    flatArr x (ix1 a) = flat (x (ix2 a (0 : Fin 3))) (x (ix2 a (1 : Fin 3))) := rfl

/-- On the extended reals the host's rounding toward −∞ is the vector unit's: one function. -/
theorem hostFloor_eq (a : Ideal .f32) : FloatOps.hostUnary .floor a = FloatOps.floor a := rfl

end Cert.FlatIndex

end
-- ==== Proof.KernelBlocks.lean ====
/-
  What the kernel's region leaves in its output array.

  The region walks 8 grid points.  At point t it fetches rows 8192·t … 8192·t + 8191 of the two
  65536 × 128 position arrays (the same rows of each, all 128 lanes), applies `flat` entry by entry
  to the two tiles, and writes the 8192 × 128 tile of bins back to the same rows of the output.  The
  eight tiles partition the rows 0 … 65535, so after the region the output array is, entry by entry,
  `flat` of the two position arrays as the region found them.
-/
import proofs.«156781_j83588653514800_2_alg».proof.Proof.Gen.KernelIdeal.Frame
import proofs.«156781_j83588653514800_2_alg».proof.Proof.FlatIndex
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.FlatIndex

variable {F : FTy → Type} [FloatOps F]
variable (m : (ℓ : Loc nD τ sig) → Buf (Elt F) ℓ)

/-- The body's loads and its store start at row 0, lane 0 of the tile. -/
theorem zero_off : (![0, 0] : Fin 2 → Nat) = fun _ => 0 := funext fun a => by fin_cases a <;> rfl

/-- The body's arithmetic on two loaded tiles is `flat`, entry by entry (the two shape casts of a tile
    to its own shape change nothing). -/
theorem tile_eq (x0 x1 : Vec F S8192x128 .f32) : k0_pay1 x0 x1 = fun j => flat (x0 j) (x1 j) := by
  unfold k0_pay1
  simp only [shapeCast_self]
  rfl

/-- The bins of two whole position arrays, entry by entry. -/
abbrev binsOf (a0 a1 : S65536x128.Idx → Elt F .f32) : S65536x128.Idx → Elt F .i32 := fun i => flat (a0 i) (a1 i)

/-- The three windows move together: at point t each is at block row t, block column 0. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every block row 0 … 7 is some point's. -/
theorem idx_onto : ∀ q : Fin 8, ∃ t : Fin cfg0.N, win0_2.index t = ![q.val, 0] :=
  (by decide +kernel : ∀ q : Fin 8, ∃ t : Fin grid0.N, win0_2.index t = ![q.val, 0])

/-- What point t writes back is tile t of the bins of the two position arrays as the region finds them:
    the inputs' tiles at t sit on the same rows and lanes as the output's. -/
theorem flushed_eq (c : Dev nD) (t : Fin cfg0.N) :
    (dats m 0 c).flushed 2 t = ((cfg0.win 2).blk t).view.read (Elt F) (binsOf (V m c main_v2) (V m c main_v5)) := by
  show (cfg0.win 2).cut (grid0.coords t) ((dats m 0 c).after 2 t) = _
  rw [after0_2]
  unfold out0_2
  rw [View.canon_unit_zero zero_off]
  simp only [View.ld_unit_zero (S := S8192x128) zero_off]
  rw [tile_eq]
  obtain ⟨e0, e1, e2, e3⟩ := idx_facts t
  funext j
  show flat (V m c main_v2 (((cfg0.win 0).blk t).view.emb j)) (V m c main_v5 (((cfg0.win 1).blk t).view.emb j))
     = flat (V m c main_v2 (((cfg0.win 2).blk t).view.emb j)) (V m c main_v5 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An entry of the output array is in point t's tile iff its row and lane are in the tile's ranges. -/
theorem mem_blk (t : Fin cfg0.N) (i : S65536x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v8).slice (win0_2.rect t)).set ↔ _
  rw [View.set_slice_whole, Rect.mem_set_unit]
  exact Iff.rfl

/-- Every entry is in some point's tile: row r is in the tile of block row r / 8192. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The output array after the region: the bins of the two position arrays, entry by entry. -/
theorem final (c : Dev nD) : (dats m 0 c).arrAt 2 cfg0.N = binsOf (V m c main_v2) (V m c main_v5) :=
  (dats m 0 c).arrAt_eq_of_cover 2 _ (fun t _ => flushed_eq m c t) cover

end Cert.KernelIdeal.Blocks

end
-- ==== Proof.KernelColumns.lean ====
/-
  What the kernel's host lines before the region prepare.

  Three columns are cut out of the 8388608 × 3 input: the two position columns, each re-laid as
  65536 rows of 128 lanes for the region, and the value column as a flat array of 8388608 entries for
  the scatter.  Re-laying keeps the row-major order, so row r, lane l of a re-laid position column is
  the position coordinate of sample 128·r + l.
-/
import proofs.«156781_j83588653514800_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Columns

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- Column k of a matrix of 8388608 rows, cut out, flattened and re-laid 128 to a row: row r, lane l holds
    the matrix's entry (a, k) for the sample a = 128·r + l. -/
theorem column_tile_apply {α : Type} (x : S8388608x3.Idx → α) (off : Fin 2 → Nat) (h : S8388608x3.Slices off S8388608x1)
    (k : Fin 3) (h0 : off 0 = 0) (h1 : off 1 = k.val) (r : Fin 65536) (l : Fin 128) (a : Fin 8388608)
    (ha : a.val = r.val * 128 + l.val) :
    shapeCast S65536x128 (shapeCast S8388608 (extractStridedSlice S8388608x1 off x h) shapeCasts_S8388608x1_S8388608)
      shapeCasts_S8388608_S65536x128 (ix2 r l) = x (ix2 a k) := by
  rw [shapeCast_apply _ shapeCasts_S8388608_S65536x128 (ix2 r l) (ix1 a)
    (by rw [Shape.rowMajor_val_one, Shape.rowMajor_val_two]; show a.val = r.val * 128 + l.val; exact ha)]
  rw [shapeCast_apply _ shapeCasts_S8388608x1_S8388608 (ix1 a) (ix2 a (0 : Fin 1))
    (by rw [Shape.rowMajor_val_two, Shape.rowMajor_val_one]; show a.val * 1 + 0 = a.val; omega)]
  exact extractStridedSlice_apply off x h (ix2 a (0 : Fin 1)) (ix2 a k) (fun b => match b with
    | ⟨0, _⟩ => by show a.val = off 0 + a.val; omega
    | ⟨1, _⟩ => by show k.val = off 1 + 0; omega)

/-- The region finds, as its first input array, the first position column re-laid. -/
theorem V_main_v2 (c : Dev nD) : (V m c main_v2 : S65536x128.Idx → Elt F .f32) =
    shapeCast S65536x128 (shapeCast S8388608 (extractStridedSlice S8388608x1 ![0, 0] (m ((c : Thread nD τ).loc main_arg0))
      slices_S8388608x3_S8388608x1_0_0) shapeCasts_S8388608x1_S8388608) shapeCasts_S8388608_S65536x128 := by
  show StableHlo.after hostOps0 (fun b => m (c, b)) (Proc.devRef .tc main_v2) = _
  after_results
  rfl

/-- As its second, the second position column re-laid. -/
theorem V_main_v5 (c : Dev nD) : (V m c main_v5 : S65536x128.Idx → Elt F .f32) =
    shapeCast S65536x128 (shapeCast S8388608 (extractStridedSlice S8388608x1 ![0, 1] (m ((c : Thread nD τ).loc main_arg0))
      slices_S8388608x3_S8388608x1_0_1) shapeCasts_S8388608x1_S8388608) shapeCasts_S8388608_S65536x128 := by
  show StableHlo.after hostOps0 (fun b => m (c, b)) (Proc.devRef .tc main_v5) = _
  after_results
  rfl

/-- Row r, lane l of the first input array is the first position coordinate of sample 128·r + l. -/
theorem V_main_v2_apply (c : Dev nD) (r : Fin 65536) (l : Fin 128) (a : Fin 8388608) (ha : a.val = r.val * 128 + l.val) :
    V m c main_v2 (ix2 r l) = m ((c : Thread nD τ).loc main_arg0) (ix2 a (0 : Fin 3)) := by
  rw [V_main_v2]
  exact column_tile_apply _ _ _ (0 : Fin 3) rfl rfl r l a ha

/-- Row r, lane l of the second input array is the second position coordinate of sample 128·r + l. -/
theorem V_main_v5_apply (c : Dev nD) (r : Fin 65536) (l : Fin 128) (a : Fin 8388608) (ha : a.val = r.val * 128 + l.val) :
    V m c main_v5 (ix2 r l) = m ((c : Thread nD τ).loc main_arg0) (ix2 a (1 : Fin 3)) := by
  rw [V_main_v5]
  exact column_tile_apply _ _ _ (1 : Fin 3) rfl rfl r l a ha

end Cert.KernelIdeal.Columns

end
-- ==== Proof.Scatter.lean ====
/-
  The scatter both programs end with, as one function of the bins and the input.

  Given the array of the samples' bins and the input, both programs do the same thing: a bin below zero
  is moved up by 4194304 (the wrap of a negative index; no bin here is negative, but the lines are there),
  the bins become an 8388608 × 1 array of one-coordinate indices, the value column of the input is
  scattered into a zero image of 4194304 entries at those indices — a later sample replacing an earlier
  one at the same bin —, and the image is re-laid as 2048 × 2048.  Nothing about the scatter itself is
  ever needed: the two programs apply it to equal bins and the same values, so it is carried as `image`,
  unopened.
-/
import proofs.«156781_j83588653514800_2_alg».proof.Proof.Gen.KernelIdeal.Frame

noncomputable section

namespace Cert.KernelIdeal.Scatter

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The 2048 × 2048 image: the input's value column scattered into zeros at the samples' bins. -/
def image (bins : IVec S8388608 32) (x : FVec F S8388608x3 .f32) : FVec F S2048x2048 .f32 :=
  shapeCast S2048x2048
    (Host.scatter scatter_S4194304_S8388608x1_S8388608_n_0_0_1 (fun _ b => b)
      (broadcastInDim S4194304 ![] bcast_S_S4194304 (constant (F := F) S_ .f32 0x00000000#32))
      (broadcastInDim S8388608x1 ![0] bcast_S8388608_S8388608x1_0
        (select (cmpi .slt bins (broadcastInDim S8388608 ![] bcast_S_S8388608 (constantI S_ 32 0#32)))
          (addi bins (broadcastInDim S8388608 ![] bcast_S_S8388608 (constantI S_ 32 4194304#32)))
          bins))
      (shapeCast S8388608 (extractStridedSlice S8388608x1 ![0, 2] x slices_S8388608x3_S8388608x1_0_2)
        shapeCasts_S8388608x1_S8388608))
    shapeCasts_S4194304_S2048x2048

/-- Before the region the host cuts the value column out of the input and flattens it. -/
theorem V_main_v7 (c : Dev nD) : (V m c main_v7 : S8388608.Idx → Elt F .f32) =
    shapeCast S8388608 (extractStridedSlice S8388608x1 ![0, 2] (m ((c : Thread nD τ).loc main_arg0))
      slices_S8388608x3_S8388608x1_0_2) shapeCasts_S8388608x1_S8388608 := by
  show StableHlo.after hostOps0 (fun b => m (c, b)) (Proc.devRef .tc main_v7) = _
  after_results
  rfl

/-- The program's result after the host lines that follow the region: the image of the region's output
    array, flattened, and the input. -/
theorem result_eq (c : Dev nD) :
    Pipeline.afterTail₀ cfgs (dats m) 0 (V0 m) [hostOps1] c main_v18
      = image (shapeCast S8388608 ((dats m 0 c).arrAt 2 cfg0.N) shapeCasts_S65536x128_S8388608)
          (m ((c : Thread nD τ).loc main_arg0)) := by
  unfold Pipeline.afterTail₀
  -- the contents the region leaves: its three arrays as the proof data says, every other buffer as the region found it
  have hout0 := Pipeline.withArrays_arr (cfgs 0).spec launch0.win.arr_inj c (V0 m c)
    (fun w => (dats m 0 c).arrAt w (cfgs 0).N) 2
  have hval0 := Pipeline.withArrays_of_ne (cfgs 0).spec c (V0 m c) (fun w => (dats m 0 c).arrAt w (cfgs 0).N) main_v7
    (by exact (by decide : ∀ w, Pipeline.arrRef spec0 w ≠ main_v7))
  generalize Pipeline.withArrays (cfgs 0).spec c (V0 m c) (fun w => (dats m 0 c).arrAt w (cfgs 0).N) = W at hout0 hval0 ⊢
  have hout : W (Proc.devRef .tc main_v8) = (dats m 0 c).arrAt 2 cfg0.N := hout0
  have hval : W (Proc.devRef .tc main_v7) = shapeCast S8388608 (extractStridedSlice S8388608x1 ![0, 2]
      (m ((c : Thread nD τ).loc main_arg0)) slices_S8388608x3_S8388608x1_0_2) shapeCasts_S8388608x1_S8388608 :=
    hval0.trans (V_main_v7 m c)
  show StableHlo.after hostOps1 W (Proc.devRef .tc main_v18) = _
  after_results
  rw [hout, hval]
  rfl

end Cert.KernelIdeal.Scatter

end
-- ==== Proof.KernelValue.lean ====
/-
  The kernel's program ends at the image of `flatArr` of its input.

  The region's output array holds `flat` of the two re-laid position columns, entry by entry; row r,
  lane l of a re-laid column is sample 128·r + l; so flattening the output back to 8388608 entries gives
  sample a the entry of row a / 128, lane a % 128, which is `flat` of sample a's two position
  coordinates: the array `flatArr` of the input.  The host lines after the region scatter with it.
-/
import proofs.«156781_j83588653514800_2_alg».proof.Proof.KernelBlocks
import proofs.«156781_j83588653514800_2_alg».proof.Proof.KernelColumns
import proofs.«156781_j83588653514800_2_alg».proof.Proof.Scatter

noncomputable section

namespace Cert.KernelIdeal.Result

open Cert.KernelIdeal Cert.KernelIdeal.Gen Idealize.ShloMosaic Idealize.ShloMosaic.TcCoe Idealize.SL.Sem
open Idealize.ShloMosaic.ValueIdx
open Cert.FlatIndex Cert.KernelIdeal.Blocks Cert.KernelIdeal.Columns Cert.KernelIdeal.Scatter

variable {F : FTy → Type} [FloatOps F]
variable (m : (ℓ : Loc nD τ sig) → Buf (Elt F) ℓ) (ρ : Dev nD → PrngReg)

/-- The region's output array, flattened, is the array of the samples' bins. -/
theorem bins_eq (c : Dev nD) :
    shapeCast S8388608 (binsOf (V m c main_v2) (V m c main_v5)) shapeCasts_S65536x128_S8388608
      = flatArr (m ((c : Thread nD τ).loc main_arg0)) := by
  funext n
  obtain ⟨a, rfl⟩ : ∃ a : Fin 8388608, n = ix1 a := ⟨n 0, eq_ix1 n⟩
  have ha : a.val < 8388608 := a.isLt
  rw [shapeCast_apply _ shapeCasts_S65536x128_S8388608 (ix1 a)
    (ix2 (⟨a.val / 128, by omega⟩ : Fin 65536) (⟨a.val % 128, by omega⟩ : Fin 128))
    (by rw [Shape.rowMajor_val_two, Shape.rowMajor_val_one]; show a.val / 128 * 128 + a.val % 128 = a.val; omega)]
  rw [flatArr_ix1]
  show flat (V m c main_v2 (ix2 _ _)) (V m c main_v5 (ix2 _ _)) = _
  rw [V_main_v2_apply m c _ _ a (by show a.val = a.val / 128 * 128 + a.val % 128; omega),
    V_main_v5_apply m c _ _ a (by show a.val = a.val / 128 * 128 + a.val % 128; omega)]

/-- Every weakly fair execution of the kernel's program ends with the result at the image of the bins of
    its input, and the input unchanged. -/
theorem run : θ_run defs (onTc (τ := τ) (main (F := F))) ⟨m, fun _ => 0, ρ⟩ fun r => ∀ c : Dev nD,
      r.2.mem ((c : Thread nD τ).loc main_v18)
        = image (flatArr (m ((c : Thread nD τ).loc main_arg0))) (m ((c : Thread nD τ).loc main_arg0))
      ∧ r.2.mem ((c : Thread nD τ).loc main_arg0) = m ((c : Thread nD τ).loc main_arg0) :=
  (θ_run defs _ _).mono (fun r h c =>
    ⟨((h c).2 main_v18 (Pipeline.mem_restRefs_of main_v18 (by decide) (by decide))).trans
        ((result_eq m c).trans (by rw [Blocks.final, bins_eq])),
      ((h c).2 main_arg0 (Pipeline.mem_restRefs_of main_arg0 (by decide) (by decide))).trans (W_main_arg0 m (dats m) c)⟩)
    (run_main m ρ)

end Cert.KernelIdeal.Result

end
-- ==== Proof.ReferenceBins.lean ====
/-
  The reference computes the same bins and the same image.

  The reference multiplies the 8388608 × 2 matrix of positions by 2048, rounds down, converts, clips,
  and combines column 0 times 2048 with column 1.  Read at sample a this is `flat` of the two position
  coordinates of sample a — the host's rounding toward −∞ and the vector unit's being one function on
  the extended reals.  What follows in the reference is, line for line, the scatter the kernel's program
  ends with.
-/
import proofs.«156781_j83588653514800_2_alg».proof.Proof.Gen.ReferenceIdeal.Read
import proofs.«156781_j83588653514800_2_alg».proof.Proof.FlatIndex
import proofs.«156781_j83588653514800_2_alg».proof.Proof.Scatter
import Idealize.ShloMosaic.Lib.ValueIdx

noncomputable section

namespace Cert.ReferenceIdeal.Bins

open Cert.ReferenceIdeal Cert.ReferenceIdeal.Gen Cert.ReferenceIdeal.Read
open Idealize.ShloMosaic Idealize.ShloMosaic.TcCoe Idealize.SL.Sem Idealize.ShloMosaic.ValueIdx
open Cert.FlatIndex

/-- Sample a's entry in column 0 of the clipped matrix is read from the input's entry (a, 0). -/
theorem idx_col0 (a : Fin 8388608) : idx_main_v0 (idx_main_v6 (idx_main_v7 (ix1 a))) = ix2 a (0 : Fin 3) :=
  funext fun b => Fin.ext (by match b with | ⟨0, _⟩ => exact Nat.div_one _ | ⟨1, _⟩ => rfl)

/-- Sample a's entry in column 1 of the clipped matrix is read from the input's entry (a, 1). -/
theorem idx_col1 (a : Fin 8388608) : idx_main_v0 (idx_main_v10 (idx_main_v11 (ix1 a))) = ix2 a (1 : Fin 3) :=
  funext fun b => Fin.ext (by match b with | ⟨0, _⟩ => exact Nat.div_one _ | ⟨1, _⟩ => rfl)

/-- The reference's array of bins is `flatArr` of its input. -/
theorem bins_eq (x : S8388608x3.Idx → Ideal .f32) : val_main_v12 (F := Ideal) x = flatArr x := by
  funext n
  obtain ⟨a, rfl⟩ : ∃ a : Fin 8388608, n = ix1 a := ⟨n 0, eq_ix1 n⟩
  rw [flatArr_ix1]
  simp only [val_main_v12_apply, val_main_v9_apply, val_main_v11_apply, val_main_v10_apply, val_main_v8_apply,
    val_main_c_1_apply, val_main_v7_apply, val_main_v6_apply, val_main_v5_apply, val_main_call0_v4_apply,
    val_main_call0_v3_apply, val_main_c_0_apply, val_main_call0_v2_apply, val_main_call0_v1_apply,
    val_main_call0_v0_apply, val_main_c_apply, val_main_v4_apply, val_main_v3_apply, val_main_v2_apply,
    val_main_v1_apply, val_main_cst_apply, val_main_v0_apply, idx_col0, idx_col1]
  simp only [hostFloor_eq]
  rfl

/-- The reference's result is the image of the bins of its input: after the bins, its lines are the scatter's. -/
theorem result_eq (x : S8388608x3.Idx → Ideal .f32) :
    val_main_v23 (F := Ideal) x = Cert.KernelIdeal.Scatter.image (flatArr x) x := by
  unfold val_main_v23 val_main_v22 val_main_v21 val_main_v20 val_main_v19 val_main_v17 val_main_v18 val_main_v16
    val_main_v15 val_main_v14 val_main_v13 val_main_c_3 val_main_c_4 val_main_cst_2
  rw [bins_eq]
  unfold Cert.KernelIdeal.Scatter.image
  rfl

end Cert.ReferenceIdeal.Bins

end
-- ==== Proof.lean ====
/-
  Scattering samples into a 2048 × 2048 image: the kernel's program and the reference compute one function.

  The input is 8388608 samples (p, q, v): a position (p, q) and a value v.  Both programs compute, for each
  sample, the bin ⌊2048·p⌋ clipped to [0, 2047], times 2048, plus ⌊2048·q⌋ clipped likewise (all in 32-bit
  integers after the conversion), and then write each sample's value v into a zero image at its bin, a later
  sample replacing an earlier one at the same bin.  The kernel's program computes the bins in a region over
  the two position columns re-laid as 65536 × 128 arrays, eight tiles of 8192 rows; the reference computes
  them on the 8388608 × 2 matrix of positions.  On the extended reals the two are the same function of the
  input, sample by sample (every operation is pointwise and is the same operation on both sides, the host's
  rounding toward −∞ being the vector unit's there), so no property of the input is used; and from the bins
  on the two programs apply the same scatter, which is carried unopened.

  Modules: FlatIndex (the bin of a sample), KernelBlocks (the region's output array), KernelColumns (what the
  region finds in its inputs), Scatter (the common last lines), KernelValue (the kernel's program's result),
  ReferenceBins (the reference's result).  The three programs' runs to completion with their argument
  unchanged are the generated frame runs and the generated reference run.
-/
import proofs.«156781_j83588653514800_2_alg».proof.Defs
import proofs.«156781_j83588653514800_2_alg».proof.Proof.Gen.Kernel
import proofs.«156781_j83588653514800_2_alg».proof.Proof.Gen.Kernel.Skeleton
import proofs.«156781_j83588653514800_2_alg».proof.Proof.Gen.Kernel.Launch
import proofs.«156781_j83588653514800_2_alg».proof.Proof.Gen.Kernel.Points
import proofs.«156781_j83588653514800_2_alg».proof.Proof.Gen.Kernel.Frame
import proofs.«156781_j83588653514800_2_alg».proof.Proof.Gen.KernelIdeal
import proofs.«156781_j83588653514800_2_alg».proof.Proof.Gen.KernelIdeal.Skeleton
import proofs.«156781_j83588653514800_2_alg».proof.Proof.Gen.KernelIdeal.Launch
import proofs.«156781_j83588653514800_2_alg».proof.Proof.Gen.KernelIdeal.Points
import proofs.«156781_j83588653514800_2_alg».proof.Proof.Gen.KernelIdeal.Frame
import proofs.«156781_j83588653514800_2_alg».proof.Proof.Gen.ReferenceIdeal
import proofs.«156781_j83588653514800_2_alg».proof.Proof.Gen.ReferenceIdeal.Run
import proofs.«156781_j83588653514800_2_alg».proof.Proof.Gen.ReferenceIdeal.Read
import proofs.«156781_j83588653514800_2_alg».proof.Proof.Gen.Pre_finite_inputs
import proofs.«156781_j83588653514800_2_alg».proof.Proof.KernelValue
import proofs.«156781_j83588653514800_2_alg».proof.Proof.ReferenceBins
import Idealize.ShloMosaic.Adequacy
import Idealize.ShloMosaic.Init

noncomputable section

namespace Cert.Proof

open Idealize.ShloMosaic Idealize.ShloMosaic.TcCoe Idealize.SL.Sem

/-- The kernel's program as printed runs to completion with its argument unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the input, both programs end at the image of the bins of that input. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Bins.result_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
